-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x2048 : Shape := ⟨2, ![2, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel
  bcast_S_S2x2048 : S_.BroadcastsInDim S2x2048 (![] : Fin 0 → Fin S2x2048.rank)
  reducesTo_S2x2048_S_d0_1 : S2x2048.ReducesTo [0, 1] S_

variable [Facts]

def fn_part1 {F : FTy → Type} [FloatOps F] (main_v13 : IVec S_ 1) (main_v16 : IVec S2x2048 1) : IVec S_ 1 :=
  let main_c_5 : IVec S_ 1 := constantI S_ 1 1#1
  let main_v17 : IVec S_ 1 := (fun x v => Host.reduce IntOp.andi x v reducesTo_S2x2048_S_d0_1 h_S_) main_v16 main_c_5
  let main_v18 : IVec S_ 1 := andi main_v13 main_v17
  main_v18

def fn {F : FTy → Type} [FloatOps F] (main_arg0 : FVec F S2x16x2048x64 .f32) (main_arg1 : FVec F S2x16x2048x64 .f32) (main_arg2 : FVec F S2x16x2048x64 .f32) (main_arg3 : FVec F S2x2048 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  let main_v14 : FVec F S2x2048 .f32 := Host.absf main_arg3
  let main_cst_4 : FVec F S_ .f32 := constant S_ .f32 0x7F800000#32
  let main_v15 : FVec F S2x2048 .f32 := broadcastInDim S2x2048 ![] bcast_S_S2x2048 main_cst_4
  let main_v16 : IVec S2x2048 1 := cmpf .olt main_v14 main_v15
  fn_part1 (F := F) main_v13 main_v16
-- ==== Kernel.lean ====
abbrev S2x16x2048x64 : Shape := ⟨4, ![2, 16, 2048, 64]⟩
abbrev S2x2048 : Shape := ⟨2, ![2, 2048]⟩
abbrev S32x2048x64 : Shape := ⟨3, ![32, 2048, 64]⟩
abbrev S2x1x2048 : Shape := ⟨3, ![2, 1, 2048]⟩
abbrev S32x2048x2048 : Shape := ⟨3, ![32, 2048, 2048]⟩
abbrev S1x512x64 : Shape := ⟨3, ![1, 512, 64]⟩
abbrev S1x2048x64 : Shape := ⟨3, ![1, 2048, 64]⟩
abbrev S1x1x2048 : Shape := ⟨3, ![1, 1, 2048]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S1x2048 : Shape := ⟨2, ![1, 2048]⟩
abbrev S512 : Shape := ⟨1, ![512]⟩
abbrev S512x1 : Shape := ⟨2, ![512, 1]⟩
abbrev S2x16x2048x2048 : Shape := ⟨4, ![2, 16, 2048, 2048]⟩

abbrev nBuf : Space → Nat
  | .hbm => 12
  | .vmem => 12
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x2048, .f32⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S2x1x2048, .f32⟩
  | .hbm, ⟨8, _⟩ => ⟨S32x2048x64, .f32⟩
  | .hbm, ⟨9, _⟩ => ⟨S32x2048x2048, .f32⟩
  | .hbm, ⟨10, _⟩ => ⟨S2x16x2048x64, .f32⟩
  | .hbm, ⟨11, _⟩ => ⟨S2x16x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1x2048, .f32⟩
  | .local _ .vmem, ⟨7, _⟩ => ⟨S1x1x2048, .f32⟩
  | .local _ .vmem, ⟨8, _⟩ => ⟨S1x512x64, .f32⟩
  | .local _ .vmem, ⟨9, _⟩ => ⟨S1x512x64, .f32⟩
  | .local _ .vmem, ⟨10, _⟩ => ⟨S1x512x2048, .f32⟩
  | .local _ .vmem, ⟨11, _⟩ => ⟨S1x512x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S2x16x2048x64_S32x2048x64 : S2x16x2048x64.ShapeCasts S32x2048x64
  shapeCasts_S2x2048_S2x1x2048 : S2x2048.ShapeCasts S2x1x2048
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x64_S1x512x64 : S512x64.ShapeCasts S1x512x64
  shapeCasts_S32x2048x64_S2x16x2048x64 : S32x2048x64.ShapeCasts S2x16x2048x64
  shapeCasts_S32x2048x2048_S2x16x2048x2048 : S32x2048x2048.ShapeCasts S2x16x2048x2048
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S2x1x2048.size a
  hwx0_3 : ∀ i : grid0.Coords, EltTy.bits .f32 = 32 ∨ (Rect.block (s := S2x1x2048) S1x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S32x2048x64.size a
  hwx0_4 : ∀ i : grid0.Coords, EltTy.bits .f32 = 32 ∨ (Rect.block (s := S32x2048x64) S1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S32x2048x2048.size a
  hwx0_5 : ∀ i : grid0.Coords, EltTy.bits .f32 = 32 ∨ (Rect.block (s := S32x2048x2048) S1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x2048 : Shape := ⟨2, ![2, 2048]⟩
abbrev S_ : Shape := ⟨0, ![]⟩
abbrev S2x16x2048x2048 : Shape := ⟨4, ![2, 16, 2048, 2048]⟩
abbrev S2x1x1x2048 : Shape := ⟨4, ![2, 1, 1, 2048]⟩
abbrev S2x16x2048 : Shape := ⟨3, ![2, 16, 2048]⟩
abbrev S2x16x2048x1 : Shape := ⟨4, ![2, 16, 2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2x16x2048x2048, .f32⟩
  | .hbm, ⟨9, _⟩ => ⟨S2x16x2048x2048, .f32⟩
  | .hbm, ⟨10, _⟩ => ⟨S2x16x2048x2048, .f32⟩
  | .hbm, ⟨11, _⟩ => ⟨S2x1x1x2048, .f32⟩
  | .hbm, ⟨12, _⟩ => ⟨S_, .f32⟩
  | .hbm, ⟨13, _⟩ => ⟨S2x1x1x2048, .f32⟩
  | .hbm, ⟨14, _⟩ => ⟨S2x1x1x2048, .f32⟩
  | .hbm, ⟨15, _⟩ => ⟨S2x16x2048x2048, .f32⟩
  | .hbm, ⟨16, _⟩ => ⟨S2x16x2048x2048, .f32⟩
  | .hbm, ⟨17, _⟩ => ⟨S_, .f32⟩
  | .hbm, ⟨18, _⟩ => ⟨S2x16x2048, .f32⟩
  | .hbm, ⟨19, _⟩ => ⟨S_, .f32⟩
  | .hbm, ⟨20, _⟩ => ⟨S2x16x2048, .f32⟩
  | .hbm, ⟨21, _⟩ => ⟨S2x16x2048, .f32⟩
  | .hbm, ⟨22, _⟩ => ⟨S2x16x2048x1, .f32⟩
  | .hbm, ⟨23, _⟩ => ⟨S2x16x2048x2048, .f32⟩
  | .hbm, ⟨24, _⟩ => ⟨S2x16x2048x2048, .f32⟩
  | .hbm, ⟨25, _⟩ => ⟨S2x16x2048x2048, .f32⟩
  | .hbm, ⟨26, _⟩ => ⟨S_, .f32⟩
  | .hbm, ⟨27, _⟩ => ⟨S2x16x2048, .f32⟩
  | .hbm, ⟨28, _⟩ => ⟨S2x16x2048x1, .f32⟩
  | .hbm, ⟨29, _⟩ => ⟨S2x16x2048x2048, .f32⟩
  | .hbm, ⟨30, _⟩ => ⟨S2x16x2048x2048, .f32⟩
  | .hbm, ⟨31, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S2x2048_S2x1x1x2048_0_3 : S2x2048.BroadcastsInDim S2x1x1x2048 (![0, 3] : Fin 2 → Fin S2x1x1x2048.rank)
  bcast_S_S2x1x1x2048 : S_.BroadcastsInDim S2x1x1x2048 (![] : Fin 0 → Fin S2x1x1x2048.rank)
  bcast_S2x1x1x2048_S2x16x2048x2048_0_1_2_3 : S2x1x1x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Spec.lean ====
/-
  What both programs compute, index by index, on the extended reals.

  For a batch b, a head h, a query row r and a key row j the SCORE is
      s(b,h,r,j) = (Σ_d q[b,h,r,d] · k[b,h,j,d]) · (1/8) + mask[b,j] · (−10⁹),
  the attention WEIGHT is the exponential of the score over the sum of the row's exponentials,
      a(b,h,r,j) = exp s(b,h,r,j) / Σ_j' exp s(b,h,r,j'),
  and the OUTPUT is the weighted sum of the value rows, o(b,h,r,e) = Σ_j a(b,h,r,j) · v[b,h,j,e].
  The two constants are kept as the float words the programs print (1/8 is 0x3E000000, −10⁹ is 0xCE6E6B28).

  The same functions are stated twice: over the four-axis arrays [2,16,2048,·] the programs take and return,
  and over the three-axis arrays [32,2048,·] (batch and head merged, row n = 16·b + h, the mask a [2,1,2048]
  array read at batch n / 16) that the tiled computation works on.
-/
import Idealize.ShloMosaic.PureOps.Ideal
import Idealize.ShloMosaic.Lib.ValueIdx

noncomputable section

namespace Cert.Attn

open Idealize.ShloMosaic Idealize.ShloMosaic.ValueIdx

/-- The scale 1/8 = 1/√64, as the float word both sides multiply by. -/
abbrev cScale : EReal := Ideal.ofBits .f32 0x3E000000#32
/-- The additive mask constant −10⁹, as the float word both sides multiply the mask by. -/
abbrev cNeg : EReal := Ideal.ofBits .f32 0xCE6E6B28#32

/-- The score of a query row against a key row whose mask entry is `mk`. -/
def score (qrow krow : Fin 64 → EReal) (mk : EReal) : EReal :=
  (∑ d : Fin 64, qrow d * krow d) * cScale + mk * cNeg

/-- The weight of key `j` in a row of scores: its exponential over the sum of the row's exponentials. -/
def weight (s : Fin 2048 → EReal) (j : Fin 2048) : EReal :=
  Ideal.div (Ideal.exp (s j)) (∑ j' : Fin 2048, Ideal.exp (s j'))

/-! ## Over the four-axis arrays -/

/-- The attention matrix, [2,16,2048,2048]. -/
def attn4 (q k : (⟨4, ![2, 16, 2048, 64]⟩ : Shape).Idx → EReal) (mask : (⟨2, ![2, 2048]⟩ : Shape).Idx → EReal) :
    (⟨4, ![2, 16, 2048, 2048]⟩ : Shape).Idx → EReal := fun i =>
  weight (fun j' => score (fun d => q (ix4 (i 0) (i 1) (i 2) d)) (fun d => k (ix4 (i 0) (i 1) j' d)) (mask (ix2 (i 0) j'))) (i 3)

/-- The attention output, [2,16,2048,64]. -/
def out4 (q k v : (⟨4, ![2, 16, 2048, 64]⟩ : Shape).Idx → EReal) (mask : (⟨2, ![2, 2048]⟩ : Shape).Idx → EReal) :
    (⟨4, ![2, 16, 2048, 64]⟩ : Shape).Idx → EReal := fun i =>
  ∑ j : Fin 2048, attn4 q k mask (ix4 (i 0) (i 1) (i 2) j) * v (ix4 (i 0) (i 1) j (i 3))

/-! ## Over the three-axis arrays (batch and head merged) -/

/-- The batch of merged row `n` = 16·b + h. -/
def batchOf (n : Fin 32) : Fin 2 := ⟨n.val / 16, by have := n.isLt; omega⟩

/-- The attention matrix, [32,2048,2048]. -/
def attn3 (q k : (⟨3, ![32, 2048, 64]⟩ : Shape).Idx → EReal) (mask : (⟨3, ![2, 1, 2048]⟩ : Shape).Idx → EReal) :
    (⟨3, ![32, 2048, 2048]⟩ : Shape).Idx → EReal := fun i =>
  weight (fun j' => score (fun d => q (ix3 (i 0) (i 1) d)) (fun d => k (ix3 (i 0) j' d))
    (mask (ix3 (batchOf (i 0)) (0 : Fin 1) j'))) (i 2)

/-- The attention output, [32,2048,64]. -/
def out3 (q k v : (⟨3, ![32, 2048, 64]⟩ : Shape).Idx → EReal) (mask : (⟨3, ![2, 1, 2048]⟩ : Shape).Idx → EReal) :
    (⟨3, ![32, 2048, 64]⟩ : Shape).Idx → EReal := fun i =>
  ∑ j : Fin 2048, attn3 q k mask (ix3 (i 0) (i 1) j) * v (ix3 (i 0) j (i 2))

end Cert.Attn

end
-- ==== Proof.LibMergedAxes.lean ====
/-
  Layout operations read at an index written by coordinates, for an array whose two leading axes (batch, head)
  are merged into one before a kernel and split again after it, and for a row statistic kept as a column.

  A shape cast keeps the row-major position of every element. So
  • merging the two leading axes, [a, b, c, d] → [n, c, d] with n = a·b, reads row z = p·b + q at (p, q, ·, ·), and
    splitting them again, [n, c, d] → [a, b, c, d], reads (p, q, ·, ·) at row z = p·b + q. The merged extent is a
    literal in a printed program (64, not 4·16), so it is a variable `n` here and only the row's value is related
    to p·b + q;
  • a vector [a] kept as a column [a, 1] reads (p, ·) at p.
  A broadcast along an axis of extent one reads the operand's one entry on that axis: a column [a, 1] broadcast
  to [a, b] reads (p, q) at (p, 0).
-/
import Idealize.ShloMosaic.Lib.ValueLayout

namespace Cert.LibMergedAxes

open Idealize.ShloMosaic Idealize.ShloMosaic.ValueIdx

variable {α : Type}

/-- An `[a, b, c, d]` array with its two leading axes merged, `[n, c, d]` with n = a·b, reads, at row
    `z = p·b + q`, the operand at `(p, q, r, e)`: both sit at row-major position ((p·b + q)·c + r)·d + e. -/
theorem shapeCast_abcd_ncd_apply {a b c d n : ℕ} (x : (⟨4, ![a, b, c, d]⟩ : Shape).Idx → α)
    (h : (⟨4, ![a, b, c, d]⟩ : Shape).ShapeCasts ⟨3, ![n, c, d]⟩) (p : Fin a) (q : Fin b) (r : Fin c) (e : Fin d)
    (z : Fin n) (hz : z.val = p.val * b + q.val) :
    shapeCast ⟨3, ![n, c, d]⟩ x h (ix3 z r e) = x (ix4 p q r e) :=
  shapeCast_apply x h _ _ (by
    rw [Shape.rowMajor_val_four, Shape.rowMajor_val_three]
    show ((p.val * b + q.val) * c + r.val) * d + e.val = (z.val * c + r.val) * d + e.val
    rw [hz])

/-- An `[n, c, d]` array, n = a·b, with its leading axis split, `[a, b, c, d]`, reads, at `(p, q, r, e)`, the
    operand at row `z = p·b + q`. -/
theorem shapeCast_ncd_abcd_apply {a b c d n : ℕ} (x : (⟨3, ![n, c, d]⟩ : Shape).Idx → α)
    (h : (⟨3, ![n, c, d]⟩ : Shape).ShapeCasts ⟨4, ![a, b, c, d]⟩) (p : Fin a) (q : Fin b) (r : Fin c) (e : Fin d)
    (z : Fin n) (hz : z.val = p.val * b + q.val) :
    shapeCast ⟨4, ![a, b, c, d]⟩ x h (ix4 p q r e) = x (ix3 z r e) :=
  shapeCast_apply x h _ _ (by
    rw [Shape.rowMajor_val_three, Shape.rowMajor_val_four]
    show (z.val * c + r.val) * d + e.val = ((p.val * b + q.val) * c + r.val) * d + e.val
    rw [hz])

/-- A vector `[a]` kept as a column `[a, 1]` reads, at `(p, u)`, the operand at `p`, whatever the unit
    coordinate `u`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `[a, 1]` broadcast to `[a, b]` reads, at `(p, q)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.LibMergedAxes
-- ==== Proof.Payload.lean ====
/-
  The kernel body's two stored values, read at an index, as functions of the blocks it loads.

  The body loads a block of 512 query rows `x0` ([1,512,64]), all 2048 key rows `x1` and value rows `x2`
  ([1,2048,64]) of the same merged (batch, head) row, and the batch's mask row `x3` ([1,1,2048]).
  Its first stored value, at (p, j), is the weight of key j in the score row of query p; its second, at (p, e),
  is the weighted sum over the keys of the value rows' column e. Every change of float format is the identity on
  the extended reals, a matrix product into a zero accumulator is the plain sum over the contracted axis, and a
  lane sum is the plain sum over the lanes.
-/
import proofs.«139712_j40973988004750_2_alg».proof.Proof.Gen.KernelIdeal.Skeleton
import proofs.«139712_j40973988004750_2_alg».proof.Proof.Spec
import proofs.«139712_j40973988004750_2_alg».proof.Proof.LibMergedAxes
import Idealize.ShloMosaic.Lib.ValueLayout
import Idealize.ShloMosaic.Lib.ValueIdx
import Idealize.ShloMosaic.Lib.Pipeline.Value
import Idealize.ShloMosaic.PureOps.Ideal.Laws

noncomputable section

namespace Cert.Attn.Payload

open Idealize.ShloMosaic Idealize.ShloMosaic.ValueIdx Cert.KernelIdeal Cert.KernelIdeal.Gen Cert.Attn

/-- The block of scores: the query block times the transposed key block, scaled, plus the mask row times −10⁹
    on every query row. -/
def scoreBlk (x0 : Vec Ideal S1x512x64 .f32) (x1 : Vec Ideal S1x2048x64 .f32) (x3 : Vec Ideal S1x1x2048 .f32) :
    FVec Ideal S512x2048 .f32 :=
  addf (mulf (matmul dot_S512x64_S2048x64_S512x2048_1_1_0_0_n_n none
      (truncf .bf16 (shapeCast S512x64 x0 shapeCasts_S1x512x64_S512x64) bitsLt_bf16_f32)
      (truncf .bf16 (shapeCast S2048x64 x1 shapeCasts_S1x2048x64_S2048x64) bitsLt_bf16_f32)
      (constant S512x2048 .f32 0x00000000#32))
    (broadcast S512x2048 (Scalar.ofBits (F := Ideal) .f32 0x3E000000#32)))
    (broadcastTo S512x2048 (mulf (shapeCast S1x2048 x3 shapeCasts_S1x1x2048_S1x2048)
      (broadcast S1x2048 (Scalar.ofBits (F := Ideal) .f32 0xCE6E6B28#32))) broadcasts_S1x2048_S512x2048)

/-- The first product's operand indices: the left operand is read at (row of the result, contracted coordinate), -/
theorem qk_lhs_0 (i : S512x2048.Idx) (q : dot_S512x64_S2048x64_S512x2048_1_1_0_0_n_n.contr.Idx) : (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl
theorem qk_lhs_1 (i : S512x2048.Idx) (q : dot_S512x64_S2048x64_S512x2048_1_1_0_0_n_n.contr.Idx) : (dot_S512x64_S2048x64_S512x2048_1_1_0_0_n_n.lhsIdx i q 1).val = (q ⟨0, by decide⟩).val :=
  dot_S512x64_S2048x64_S512x2048_1_1_0_0_n_n.lhsIdx_val_of_single rfl i q
/-- and the right operand at (column of the result, contracted coordinate): the keys enter transposed. -/
theorem qk_rhs_0 (i : S512x2048.Idx) (q : dot_S512x64_S2048x64_S512x2048_1_1_0_0_n_n.contr.Idx) : (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl
theorem qk_rhs_1 (i : S512x2048.Idx) (q : dot_S512x64_S2048x64_S512x2048_1_1_0_0_n_n.contr.Idx) : (dot_S512x64_S2048x64_S512x2048_1_1_0_0_n_n.rhsIdx i q 1).val = (q ⟨0, by decide⟩).val :=
  dot_S512x64_S2048x64_S512x2048_1_1_0_0_n_n.rhsIdx_val_of_single rfl i q

/-- The query block times the transposed key block, at (p, j): the sum over the 64 features. -/
theorem qk_apply (x0 : Vec Ideal S1x512x64 .f32) (x1 : Vec Ideal S1x2048x64 .f32) (p : Fin 512) (j : Fin 2048) :
    matmul (F := Ideal) dot_S512x64_S2048x64_S512x2048_1_1_0_0_n_n none
      (truncf .bf16 (shapeCast S512x64 x0 shapeCasts_S1x512x64_S512x64) bitsLt_bf16_f32)
      (truncf .bf16 (shapeCast S2048x64 x1 shapeCasts_S1x2048x64_S2048x64) bitsLt_bf16_f32)
      (constant S512x2048 .f32 0x00000000#32) (ix2 p j)
    = ∑ d : Fin 64, x0 (ix3 (0 : Fin 1) p d) * x1 (ix3 (0 : Fin 1) j d) := by
  simp only [matmul]
  rw [Ideal.matmul_constant_zero_apply,
    ← Equiv.sum_comp (contrEquiv1 dot_S512x64_S2048x64_S512x2048_1_1_0_0_n_n 64 rfl rfl).symm]
  refine Finset.sum_congr rfl fun d _ => ?_
  have hd := contrEquiv1_symm_val dot_S512x64_S2048x64_S512x2048_1_1_0_0_n_n 64 rfl rfl d
  have el : dot_S512x64_S2048x64_S512x2048_1_1_0_0_n_n.lhsIdx (ix2 p j)
      ((contrEquiv1 dot_S512x64_S2048x64_S512x2048_1_1_0_0_n_n 64 rfl rfl).symm d) = ix2 p d :=
    funext fun a => Fin.ext (by
      match a with
      | ⟨0, _⟩ => exact qk_lhs_0 _ _
      | ⟨1, _⟩ => exact (qk_lhs_1 _ _).trans hd)
  have er : dot_S512x64_S2048x64_S512x2048_1_1_0_0_n_n.rhsIdx (ix2 p j)
      ((contrEquiv1 dot_S512x64_S2048x64_S512x2048_1_1_0_0_n_n 64 rfl rfl).symm d) = ix2 j d :=
    funext fun a => Fin.ext (by
      match a with
      | ⟨0, _⟩ => exact qk_rhs_0 _ _
      | ⟨1, _⟩ => exact (qk_rhs_1 _ _).trans hd)
  rw [el, er]
  show shapeCast S512x64 x0 shapeCasts_S1x512x64_S512x64 (ix2 p d) * shapeCast S2048x64 x1 shapeCasts_S1x2048x64_S2048x64 (ix2 j d) = _
  rw [shapeCast_1ab_ab_apply, shapeCast_1ab_ab_apply]

/-- The scores at (p, j): query row p against key row j, with key j's mask entry. -/
theorem scoreBlk_apply (x0 : Vec Ideal S1x512x64 .f32) (x1 : Vec Ideal S1x2048x64 .f32) (x3 : Vec Ideal S1x1x2048 .f32)
    (p : Fin 512) (j : Fin 2048) :
    scoreBlk x0 x1 x3 (ix2 p j)
      = score (fun d => x0 (ix3 (0 : Fin 1) p d)) (fun d => x1 (ix3 (0 : Fin 1) j d)) (x3 (ix3 (0 : Fin 1) (0 : Fin 1) j)) := by
  unfold scoreBlk score
  rw [addf_apply, mulf_apply, qk_apply, broadcast_apply, broadcastTo_1b_ab_apply, mulf_apply, broadcast_apply,
    shapeCast_1ab_ab_apply]
  rfl

/-- A lane sum of a [512, 2048] block at row p: the sum over the 2048 lanes. -/
theorem laneSum_apply (v : FVec Ideal S512x2048 .f32) (p : Fin 512) :
    multiReduction .add [1] S512 v 0x00000000#32 reduces_S512x2048_S512 (.inl rfl) rfl (ix1 p)
      = ∑ k : Fin 2048, v (ix2 p k) := by
  refine (Ideal.multiReduction_add_single v 0x00000000#32 reduces_S512x2048_S512 (.inl rfl) rfl (ix1 p)).trans ?_
  exact Finset.sum_congr rfl fun k _ => congrArg v (funext fun a => Fin.ext (by
    match a with
    | ⟨0, _⟩ => rfl
    | ⟨1, _⟩ => rfl))

/-- The body's weights as one expression of the block of scores. -/
theorem pay1_eq (x0 : Vec Ideal S1x512x64 .f32) (x1 : Vec Ideal S1x2048x64 .f32) (x3 : Vec Ideal S1x1x2048 .f32) :
    k0_pay1 (F := Ideal) x0 x1 x3
      = divf (exp (scoreBlk x0 x1 x3))
          (broadcastTo S512x2048 (shapeCast S512x1
            (multiReduction .add [1] S512 (exp (scoreBlk x0 x1 x3)) 0x00000000#32 reduces_S512x2048_S512 (.inl rfl) rfl)
            shapeCasts_S512_S512x1) broadcasts_S512x1_S512x2048) := rfl

/-- The weights at (p, j): the exponential of the score over the sum of the row's exponentials. -/
theorem pay1_apply (x0 : Vec Ideal S1x512x64 .f32) (x1 : Vec Ideal S1x2048x64 .f32) (x3 : Vec Ideal S1x1x2048 .f32)
    (p : Fin 512) (j : Fin 2048) :
    k0_pay1 (F := Ideal) x0 x1 x3 (ix2 p j)
      = weight (fun j' => score (fun d => x0 (ix3 (0 : Fin 1) p d)) (fun d => x1 (ix3 (0 : Fin 1) j' d))
          (x3 (ix3 (0 : Fin 1) (0 : Fin 1) j'))) j := by
  rw [pay1_eq, divf_apply, Cert.LibMergedAxes.broadcastTo_a1_ab_apply, Cert.LibMergedAxes.shapeCast_a_a1_apply, laneSum_apply]
  unfold weight
  show Ideal.div (Ideal.exp (scoreBlk x0 x1 x3 (ix2 p j))) (∑ k : Fin 2048, Ideal.exp (scoreBlk x0 x1 x3 (ix2 p k))) = _
  simp only [scoreBlk_apply]

/-- The first stored value is the block of weights under a leading unit axis. -/
theorem pay2_apply (x0 : Vec Ideal S1x512x64 .f32) (x1 : Vec Ideal S1x2048x64 .f32) (x3 : Vec Ideal S1x1x2048 .f32)
    (u : Fin 1) (p : Fin 512) (j : Fin 2048) :
    k0_pay2 (F := Ideal) x0 x1 x3 (ix3 u p j) = k0_pay1 (F := Ideal) x0 x1 x3 (ix2 p j) := by
  unfold k0_pay2
  exact shapeCast_ab_1ab_apply _ _ u p j

/-- The second product's operand indices: the weights are read at (row of the result, contracted coordinate), -/
theorem av_lhs_0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl
theorem av_lhs_1 (i : S512x64.Idx) (q : dot_S512x2048_S2048x64_S512x64_1_0_0_1_n_n.contr.Idx) : (dot_S512x2048_S2048x64_S512x64_1_0_0_1_n_n.lhsIdx i q 1).val = (q ⟨0, by decide⟩).val :=
  dot_S512x2048_S2048x64_S512x64_1_0_0_1_n_n.lhsIdx_val_of_single rfl i q
/-- and the value rows at (contracted coordinate, column of the result). -/
theorem av_rhs_0 (i : S512x64.Idx) (q : dot_S512x2048_S2048x64_S512x64_1_0_0_1_n_n.contr.Idx) : (dot_S512x2048_S2048x64_S512x64_1_0_0_1_n_n.rhsIdx i q 0).val = (q ⟨0, by decide⟩).val :=
  dot_S512x2048_S2048x64_S512x64_1_0_0_1_n_n.rhsIdx_val_of_single rfl i q
theorem av_rhs_1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-- The weights times the value block, at (p, e): the sum over the 2048 keys. -/
theorem av_apply (w : FVec Ideal S512x2048 .f32) (x2 : Vec Ideal S1x2048x64 .f32) (p : Fin 512) (e : Fin 64) :
    matmul (F := Ideal) dot_S512x2048_S2048x64_S512x64_1_0_0_1_n_n none
      (truncf .bf16 w bitsLt_bf16_f32)
      (truncf .bf16 (shapeCast S2048x64 x2 shapeCasts_S1x2048x64_S2048x64) bitsLt_bf16_f32)
      (constant S512x64 .f32 0x00000000#32) (ix2 p e)
    = ∑ j : Fin 2048, w (ix2 p j) * x2 (ix3 (0 : Fin 1) j e) := by
  simp only [matmul]
  rw [Ideal.matmul_constant_zero_apply,
    ← Equiv.sum_comp (contrEquiv1 dot_S512x2048_S2048x64_S512x64_1_0_0_1_n_n 2048 rfl rfl).symm]
  refine Finset.sum_congr rfl fun j _ => ?_
  have hj := contrEquiv1_symm_val dot_S512x2048_S2048x64_S512x64_1_0_0_1_n_n 2048 rfl rfl j
  have el : dot_S512x2048_S2048x64_S512x64_1_0_0_1_n_n.lhsIdx (ix2 p e)
      ((contrEquiv1 dot_S512x2048_S2048x64_S512x64_1_0_0_1_n_n 2048 rfl rfl).symm j) = ix2 p j :=
    funext fun a => Fin.ext (by
      match a with
      | ⟨0, _⟩ => exact av_lhs_0 _ _
      | ⟨1, _⟩ => exact (av_lhs_1 _ _).trans hj)
  have er : dot_S512x2048_S2048x64_S512x64_1_0_0_1_n_n.rhsIdx (ix2 p e)
      ((contrEquiv1 dot_S512x2048_S2048x64_S512x64_1_0_0_1_n_n 2048 rfl rfl).symm j) = ix2 j e :=
    funext fun a => Fin.ext (by
      match a with
      | ⟨0, _⟩ => exact (av_rhs_0 _ _).trans hj
      | ⟨1, _⟩ => exact av_rhs_1 _ _)
  rw [el, er]
  show w (ix2 p j) * shapeCast S2048x64 x2 shapeCasts_S1x2048x64_S2048x64 (ix2 j e) = _
  rw [shapeCast_1ab_ab_apply]

/-- The second stored value at (p, e): the weighted sum of the value rows' column e. -/
theorem pay3_apply (x0 : Vec Ideal S1x512x64 .f32) (x1 : Vec Ideal S1x2048x64 .f32) (x3 : Vec Ideal S1x1x2048 .f32)
    (x2 : Vec Ideal S1x2048x64 .f32) (u : Fin 1) (p : Fin 512) (e : Fin 64) :
    k0_pay3 (F := Ideal) x0 x1 x3 x2 (ix3 u p e)
      = ∑ j : Fin 2048, k0_pay1 (F := Ideal) x0 x1 x3 (ix2 p j) * x2 (ix3 (0 : Fin 1) j e) := by
  unfold k0_pay3
  exact (shapeCast_ab_1ab_apply _ _ u p e).trans (av_apply _ x2 p e)

end Cert.Attn.Payload

end
-- ==== Proof.BlockFn.lean ====
/-
  One block of the tiled computation against the merged arrays.

  If the query block is rows 512·g … 512·g + 511 of merged row n of an array Q, the key and value blocks are all
  rows of merged row n of arrays K and W, and the mask block is the row of batch n / 16 of an array M, then the
  block of weights is rows 512·g … 512·g + 511 of row n of the merged attention matrix of (Q, K, M), and the block
  of outputs the same rows of the merged attention output of (Q, K, W, M).
-/
import proofs.«139712_j40973988004750_2_alg».proof.Proof.Payload

noncomputable section

namespace Cert.Attn.Payload

open Idealize.ShloMosaic Idealize.ShloMosaic.ValueIdx Cert.KernelIdeal Cert.KernelIdeal.Gen Cert.Attn

/-- Query row p of group g. -/
def row (g : Fin 4) (p : Fin 512) : Fin 2048 := ⟨512 * g.val + p.val, by have := g.isLt; have := p.isLt; omega⟩

theorem blk_attn (Q K : S32x2048x64.Idx → EReal) (M : S2x1x2048.Idx → EReal)
    (x0 : Vec Ideal S1x512x64 .f32) (x1 : Vec Ideal S1x2048x64 .f32) (x3 : Vec Ideal S1x1x2048 .f32)
    (n : Fin 32) (g : Fin 4)
    (h0 : ∀ (p : Fin 512) (d : Fin 64), x0 (ix3 (0 : Fin 1) p d) = Q (ix3 n (row g p) d))
    (h1 : ∀ (j : Fin 2048) (d : Fin 64), x1 (ix3 (0 : Fin 1) j d) = K (ix3 n j d))
    (h3 : ∀ j : Fin 2048, x3 (ix3 (0 : Fin 1) (0 : Fin 1) j) = M (ix3 (batchOf n) (0 : Fin 1) j))
    (p : Fin 512) (j : Fin 2048) :
    k0_pay1 (F := Ideal) x0 x1 x3 (ix2 p j) = attn3 Q K M (ix3 n (row g p) j) := by
  rw [pay1_apply]
  unfold attn3
  simp only [h0, h1, h3]

theorem blk_out (Q K W : S32x2048x64.Idx → EReal) (M : S2x1x2048.Idx → EReal)
    (x0 : Vec Ideal S1x512x64 .f32) (x1 x2 : Vec Ideal S1x2048x64 .f32) (x3 : Vec Ideal S1x1x2048 .f32)
    (n : Fin 32) (g : Fin 4)
    (h0 : ∀ (p : Fin 512) (d : Fin 64), x0 (ix3 (0 : Fin 1) p d) = Q (ix3 n (row g p) d))
    (h1 : ∀ (j : Fin 2048) (d : Fin 64), x1 (ix3 (0 : Fin 1) j d) = K (ix3 n j d))
    (h2 : ∀ (j : Fin 2048) (d : Fin 64), x2 (ix3 (0 : Fin 1) j d) = W (ix3 n j d))
    (h3 : ∀ j : Fin 2048, x3 (ix3 (0 : Fin 1) (0 : Fin 1) j) = M (ix3 (batchOf n) (0 : Fin 1) j))
    (u : Fin 1) (p : Fin 512) (e : Fin 64) :
    k0_pay3 (F := Ideal) x0 x1 x3 x2 (ix3 u p e) = out3 Q K W M (ix3 n (row g p) e) := by
  rw [pay3_apply]
  unfold out3
  exact Finset.sum_congr rfl fun j _ => by rw [blk_attn Q K M x0 x1 x3 n g h0 h1 h3 p j, h2]

end Cert.Attn.Payload

end
-- ==== Proof.Blocks.lean ====
/-
  From blocks to arrays: what the tiled computation leaves in its two result arrays.

  Grid point t = 4·n + g (n one of the 32 merged (batch, head) rows, g one of four groups of 512 query rows)
  loads query rows 512·g … 512·g + 511 of row n, all key and value rows of row n and the mask row of batch n / 16,
  and writes back rows 512·g … 512·g + 511 of row n of both results. The blocks written back tile each result
  array, so each array ends holding one function of the arrays the computation was launched on.
-/
import proofs.«139712_j40973988004750_2_alg».proof.Proof.Gen.KernelIdeal.Frame
import proofs.«139712_j40973988004750_2_alg».proof.Proof.BlockFn
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.Attn.Blocks

open Idealize.ShloMosaic.ValueIdx Cert.KernelIdeal Cert.KernelIdeal.Gen Cert.Attn

variable (m : (ℓ : Loc nD τ sig) → Buf (Elt Ideal) ℓ) (ρ : Dev nD → PrngReg)

/-- The printed index maps, decided over the 128 grid points. -/
theorem idx_facts : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = 0 ∧ win0_1.index t (2 : Fin 3) = 0)
    ∧ (win0_2.index t (0 : Fin 3) = t.val / 4 ∧ win0_2.index t (1 : Fin 3) = 0 ∧ win0_2.index t (2 : Fin 3) = 0)
    ∧ (win0_3.index t (0 : Fin 3) = t.val / 64 ∧ win0_3.index t (1 : Fin 3) = 0 ∧ win0_3.index t (2 : Fin 3) = 0)
    ∧ (win0_4.index t (0 : Fin 3) = t.val / 4 ∧ win0_4.index t (1 : Fin 3) = t.val % 4 ∧ win0_4.index t (2 : Fin 3) = 0)
    ∧ (win0_5.index t (0 : Fin 3) = t.val / 4 ∧ win0_5.index t (1 : Fin 3) = t.val % 4 ∧ win0_5.index t (2 : Fin 3) = 0) :=
  (by decide +kernel : ∀ t : Fin grid0.N, _)

/-- The merged query array as the tiled computation finds it. -/
theorem V_v0 (c : Dev nD) : (V m c main_v0 : S32x2048x64.Idx → EReal)
    = shapeCast S32x2048x64 (m ((c : Thread nD τ).loc main_arg0)) shapeCasts_S2x16x2048x64_S32x2048x64 := by
  show StableHlo.after hostOps0 (fun b => m (c, b)) (Proc.devRef .tc main_v0) = _
  after_results
  rfl
/-- The merged key array. -/
theorem V_v1 (c : Dev nD) : (V m c main_v1 : S32x2048x64.Idx → EReal)
    = shapeCast S32x2048x64 (m ((c : Thread nD τ).loc main_arg1)) shapeCasts_S2x16x2048x64_S32x2048x64 := by
  show StableHlo.after hostOps0 (fun b => m (c, b)) (Proc.devRef .tc main_v1) = _
  after_results
  rfl
/-- The merged value array. -/
theorem V_v2 (c : Dev nD) : (V m c main_v2 : S32x2048x64.Idx → EReal)
    = shapeCast S32x2048x64 (m ((c : Thread nD τ).loc main_arg2)) shapeCasts_S2x16x2048x64_S32x2048x64 := by
  show StableHlo.after hostOps0 (fun b => m (c, b)) (Proc.devRef .tc main_v2) = _
  after_results
  rfl
/-- The mask with a unit axis in the middle. -/
theorem V_v3 (c : Dev nD) : (V m c main_v3 : S2x1x2048.Idx → EReal)
    = shapeCast S2x1x2048 (m ((c : Thread nD τ).loc main_arg3)) shapeCasts_S2x2048_S2x1x2048 := by
  show StableHlo.after hostOps0 (fun b => m (c, b)) (Proc.devRef .tc main_v3) = _
  after_results
  rfl

theorem hz : (![0, 0, 0] : Fin 3 → Nat) = fun _ => 0 := funext fun a => by fin_cases a <;> rfl

/-- The merged row and the group of query rows of grid point t. -/
def rowOf (t : Fin cfg0.N) : Fin 32 := ⟨t.val / 4, by have h : t.val < cfg0.N := t.isLt; have e : cfg0.N = 128 := N_0; omega⟩
def grpOf (t : Fin cfg0.N) : Fin 4 := ⟨t.val % 4, by omega⟩

/-- The query block at point t: rows 512·g … of merged row n. -/
theorem iblk0_apply (c : Dev nD) (t : Fin cfg0.N) (p : Fin 512) (d : Fin 64) :
    (iblk m c 0 t : Vec Ideal S1x512x64 .f32) (ix3 (0 : Fin 1) p d)
      = (V m c main_v0 : S32x2048x64.Idx → EReal) (ix3 (rowOf t) (Payload.row (grpOf t) p) d) := by
  obtain ⟨⟨a0, a1, a2⟩, -⟩ := idx_facts t
  unfold iblk
  rw [View.read_apply]
  refine congrArg (V m c main_v0 : S32x2048x64.Idx → EReal) (funext fun a => Fin.ext ?_)
  match a with
  | ⟨0, _⟩ => show win0_0.index t (0 : Fin 3) * 1 + 1 * 0 = t.val / 4; omega
  | ⟨1, _⟩ => show win0_0.index t (1 : Fin 3) * 512 + 1 * p.val = 512 * (t.val % 4) + p.val; omega
  | ⟨2, _⟩ => show win0_0.index t (2 : Fin 3) * 64 + 1 * d.val = d.val; omega

/-- The key block at point t: all rows of merged row n. -/
theorem iblk1_apply (c : Dev nD) (t : Fin cfg0.N) (j : Fin 2048) (d : Fin 64) :
    (iblk m c 1 t : Vec Ideal S1x2048x64 .f32) (ix3 (0 : Fin 1) j d)
      = (V m c main_v1 : S32x2048x64.Idx → EReal) (ix3 (rowOf t) j d) := by
  obtain ⟨-, ⟨a0, a1, a2⟩, -⟩ := idx_facts t
  unfold iblk
  rw [View.read_apply]
  refine congrArg (V m c main_v1 : S32x2048x64.Idx → EReal) (funext fun a => Fin.ext ?_)
  match a with
  | ⟨0, _⟩ => show win0_1.index t (0 : Fin 3) * 1 + 1 * 0 = t.val / 4; omega
  | ⟨1, _⟩ => show win0_1.index t (1 : Fin 3) * 2048 + 1 * j.val = j.val; omega
  | ⟨2, _⟩ => show win0_1.index t (2 : Fin 3) * 64 + 1 * d.val = d.val; omega

/-- The value block at point t: all rows of merged row n. -/
theorem iblk2_apply (c : Dev nD) (t : Fin cfg0.N) (j : Fin 2048) (d : Fin 64) :
    (iblk m c 2 t : Vec Ideal S1x2048x64 .f32) (ix3 (0 : Fin 1) j d)
      = (V m c main_v2 : S32x2048x64.Idx → EReal) (ix3 (rowOf t) j d) := by
  obtain ⟨-, -, ⟨a0, a1, a2⟩, -⟩ := idx_facts t
  unfold iblk
  rw [View.read_apply]
  refine congrArg (V m c main_v2 : S32x2048x64.Idx → EReal) (funext fun a => Fin.ext ?_)
  match a with
  | ⟨0, _⟩ => show win0_2.index t (0 : Fin 3) * 1 + 1 * 0 = t.val / 4; omega
  | ⟨1, _⟩ => show win0_2.index t (1 : Fin 3) * 2048 + 1 * j.val = j.val; omega
  | ⟨2, _⟩ => show win0_2.index t (2 : Fin 3) * 64 + 1 * d.val = d.val; omega

/-- The mask block at point t: the row of batch n / 16. -/
theorem iblk3_apply (c : Dev nD) (t : Fin cfg0.N) (j : Fin 2048) :
    (iblk m c 3 t : Vec Ideal S1x1x2048 .f32) (ix3 (0 : Fin 1) (0 : Fin 1) j)
      = (V m c main_v3 : S2x1x2048.Idx → EReal) (ix3 (batchOf (rowOf t)) (0 : Fin 1) j) := by
  obtain ⟨-, -, -, ⟨a0, a1, a2⟩, -⟩ := idx_facts t
  unfold iblk
  rw [View.read_apply]
  refine congrArg (V m c main_v3 : S2x1x2048.Idx → EReal) (funext fun a => Fin.ext ?_)
  match a with
  | ⟨0, _⟩ => show win0_3.index t (0 : Fin 3) * 1 + 1 * 0 = t.val / 4 / 16; omega
  | ⟨1, _⟩ => show win0_3.index t (1 : Fin 3) * 1 + 1 * 0 = 0; omega
  | ⟨2, _⟩ => show win0_3.index t (2 : Fin 3) * 2048 + 1 * j.val = j.val; omega

/-- WHAT POINT t WRITES BACK to the attention matrix is block t of the merged attention matrix. -/
theorem flushed5_eq (c : Dev nD) (t : Fin cfg0.N) :
    (dats m 0 c).flushed 5 t
      = ((cfg0.win 5).blk t).view.read (Elt Ideal) (attn3 (V m c main_v0) (V m c main_v1) (V m c main_v3)) := by
  show (cfg0.win 5).cut (grid0.coords t) ((dats m 0 c).after 5 t) = _
  rw [after0_5]
  unfold out0_5
  rw [View.canon_unit_zero hz]
  simp only [View.ld_unit_zero (S := S1x512x64) hz, View.ld_unit_zero (S := S1x2048x64) hz, View.ld_unit_zero (S := S1x1x2048) hz]
  funext (y : S1x512x2048.Idx)
  show k0_pay2 (F := Ideal) (iblk m c 0 t) (iblk m c 1 t) (iblk m c 3 t) y = _
  obtain ⟨u, p, j, rfl⟩ : ∃ (u : Fin 1) (p : Fin 512) (j : Fin 2048), y = ix3 u p j := ⟨y 0, y 1, y 2, eq_ix3 y⟩
  obtain ⟨-, -, -, -, -, ⟨a0, a1, a2⟩⟩ := idx_facts t
  refine (Payload.pay2_apply (iblk m c 0 t) (iblk m c 1 t) (iblk m c 3 t) u p j).trans
    ((Payload.blk_attn (V m c main_v0) (V m c main_v1) (V m c main_v3) (iblk m c 0 t) (iblk m c 1 t) (iblk m c 3 t)
      (rowOf t) (grpOf t) (iblk0_apply m c t) (iblk1_apply m c t) (iblk3_apply m c t) p j).trans ?_)
  rw [View.read_apply]
  refine congrArg (attn3 (V m c main_v0) (V m c main_v1) (V m c main_v3)) (funext fun a => Fin.ext ?_)
  have hu : u.val = 0 := by omega
  match a with
  | ⟨0, _⟩ => show t.val / 4 = win0_5.index t (0 : Fin 3) * 1 + 1 * u.val; omega
  | ⟨1, _⟩ => show 512 * (t.val % 4) + p.val = win0_5.index t (1 : Fin 3) * 512 + 1 * p.val; omega
  | ⟨2, _⟩ => show j.val = win0_5.index t (2 : Fin 3) * 2048 + 1 * j.val; omega

/-- WHAT POINT t WRITES BACK to the output is block t of the merged attention output. -/
theorem flushed4_eq (c : Dev nD) (t : Fin cfg0.N) :
    (dats m 0 c).flushed 4 t
      = ((cfg0.win 4).blk t).view.read (Elt Ideal)
          (out3 (V m c main_v0) (V m c main_v1) (V m c main_v2) (V m c main_v3)) := by
  show (cfg0.win 4).cut (grid0.coords t) ((dats m 0 c).after 4 t) = _
  rw [after0_4]
  unfold out0_4
  rw [View.canon_unit_zero hz]
  simp only [View.ld_unit_zero (S := S1x512x64) hz, View.ld_unit_zero (S := S1x2048x64) hz, View.ld_unit_zero (S := S1x1x2048) hz]
  funext (y : S1x512x64.Idx)
  show k0_pay3 (F := Ideal) (iblk m c 0 t) (iblk m c 1 t) (iblk m c 3 t) (iblk m c 2 t) y = _
  obtain ⟨u, p, e, rfl⟩ : ∃ (u : Fin 1) (p : Fin 512) (e : Fin 64), y = ix3 u p e := ⟨y 0, y 1, y 2, eq_ix3 y⟩
  obtain ⟨-, -, -, -, ⟨a0, a1, a2⟩, -⟩ := idx_facts t
  refine (Payload.blk_out (V m c main_v0) (V m c main_v1) (V m c main_v2) (V m c main_v3)
      (iblk m c 0 t) (iblk m c 1 t) (iblk m c 2 t) (iblk m c 3 t)
      (rowOf t) (grpOf t) (iblk0_apply m c t) (iblk1_apply m c t) (iblk2_apply m c t) (iblk3_apply m c t) u p e).trans ?_
  rw [View.read_apply]
  refine congrArg (out3 (V m c main_v0) (V m c main_v1) (V m c main_v2) (V m c main_v3)) (funext fun a => Fin.ext ?_)
  have hu : u.val = 0 := by omega
  match a with
  | ⟨0, _⟩ => show t.val / 4 = win0_4.index t (0 : Fin 3) * 1 + 1 * u.val; omega
  | ⟨1, _⟩ => show 512 * (t.val % 4) + p.val = win0_4.index t (1 : Fin 3) * 512 + 1 * p.val; omega
  | ⟨2, _⟩ => show e.val = win0_4.index t (2 : Fin 3) * 64 + 1 * e.val; omega

/-- An index of the merged attention matrix is in point t's block iff each coordinate is in the block's range. -/
theorem mem_blk5 (t : Fin cfg0.N) (i : S32x2048x2048.Idx) :
    i ∈ ((cfg0.win 5).blk t).view.set ↔ ∀ a : Fin 3, win0_5.index t a * S1x512x2048.size a ≤ (i a).val
      ∧ (i a).val < win0_5.index t a * S1x512x2048.size a + S1x512x2048.size a := by
  show i ∈ ((View.whole main_v4_1).slice (win0_5.rect t)).set ↔ _
  rw [View.set_slice_whole, Rect.mem_set_unit]
  exact Iff.rfl

/-- Every index (n, r, j) of the merged attention matrix is in the block of point 4·n + r / 512. -/
theorem cover5 (i : S32x2048x2048.Idx) :
    ∃ t : Fin cfg0.N, (cfg0.win 5).flush t = true ∧ i ∈ ((cfg0.win 5).blk t).view.set := by
  have h0 : (i 0).val < 32 := (i 0).isLt
  have h1 : (i 1).val < 2048 := (i 1).isLt
  have h2 : (i 2).val < 2048 := (i 2).isLt
  have hN : cfg0.N = 128 := N_0
  have ht : ∃ t : Fin cfg0.N, t.val = 4 * (i 0).val + (i 1).val / 512 := ⟨⟨4 * (i 0).val + (i 1).val / 512, by omega⟩, rfl⟩
  obtain ⟨t, ht⟩ := ht
  refine ⟨t, flush0_5 t, ?_⟩
  rw [mem_blk5]
  obtain ⟨-, -, -, -, -, ⟨a0, a1, a2⟩⟩ := idx_facts t
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 2048 ≤ (i 2).val ∧ (i 2).val < win0_5.index t (2 : Fin 3) * 2048 + 2048; omega

/-- THE ATTENTION MATRIX after the tiled computation: the merged attention matrix of the merged arrays. -/
theorem final5 (c : Dev nD) :
    (dats m 0 c).arrAt 5 cfg0.N = attn3 (V m c main_v0) (V m c main_v1) (V m c main_v3) :=
  (dats m 0 c).arrAt_eq_of_cover 5 (attn3 (V m c main_v0) (V m c main_v1) (V m c main_v3))
    (fun t _ => flushed5_eq m c t) (fun i => cover5 i)

/-- An index of the merged output is in point t's block iff each coordinate is in the block's range. -/
theorem mem_blk4 (t : Fin cfg0.N) (i : S32x2048x64.Idx) :
    i ∈ ((cfg0.win 4).blk t).view.set ↔ ∀ a : Fin 3, win0_4.index t a * S1x512x64.size a ≤ (i a).val
      ∧ (i a).val < win0_4.index t a * S1x512x64.size a + S1x512x64.size a := by
  show i ∈ ((View.whole main_v4_0).slice (win0_4.rect t)).set ↔ _
  rw [View.set_slice_whole, Rect.mem_set_unit]
  exact Iff.rfl

/-- Every index (n, r, e) of the merged output is in the block of point 4·n + r / 512. -/
theorem cover4 (i : S32x2048x64.Idx) :
    ∃ t : Fin cfg0.N, (cfg0.win 4).flush t = true ∧ i ∈ ((cfg0.win 4).blk t).view.set := by
  have h0 : (i 0).val < 32 := (i 0).isLt
  have h1 : (i 1).val < 2048 := (i 1).isLt
  have h2 : (i 2).val < 64 := (i 2).isLt
  have hN : cfg0.N = 128 := N_0
  have ht : ∃ t : Fin cfg0.N, t.val = 4 * (i 0).val + (i 1).val / 512 := ⟨⟨4 * (i 0).val + (i 1).val / 512, by omega⟩, rfl⟩
  obtain ⟨t, ht⟩ := ht
  refine ⟨t, flush0_4 t, ?_⟩
  rw [mem_blk4]
  obtain ⟨-, -, -, -, ⟨a0, a1, a2⟩, -⟩ := idx_facts t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 64 ≤ (i 2).val ∧ (i 2).val < win0_4.index t (2 : Fin 3) * 64 + 64; omega

/-- THE OUTPUT after the tiled computation: the merged attention output of the merged arrays. -/
theorem final4 (c : Dev nD) :
    (dats m 0 c).arrAt 4 cfg0.N = out3 (V m c main_v0) (V m c main_v1) (V m c main_v2) (V m c main_v3) :=
  (dats m 0 c).arrAt_eq_of_cover 4 (out3 (V m c main_v0) (V m c main_v1) (V m c main_v2) (V m c main_v3))
    (fun t _ => flushed4_eq m c t) (fun i => cover4 i)

end Cert.Attn.Blocks

end
-- ==== Proof.LibFlattenBroadcast.lean ====
/-
  Layout operations read at an index written by coordinates, for the shapes a "join two sequences, then one matrix
  product" kernel meets and Lib/ValueLayout.lean does not have.

  A shape cast keeps the row-major position of every element. So
  • inserting a unit axis in the middle, [a, c] → [a, 1, c], reads (p, ·, d) at (p, d);
  • merging the two leading axes, [a, b, c] → [a·b, c], reads row p·b + q at (p, q, ·), and splitting them again,
    [a·b, c] → [a, b, c], reads (p, q, ·) at row p·b + q. The merged extent is a literal in a printed program
    (2048, not 16·128), so it is a variable `n` here and only the row's value is related to p·b + q.
  A broadcast along an axis of extent one reads the operand's one entry on that axis:
  • [a, 1, c] → [a, b, c] reads (p, q, d) at (p, 0, d);
  • [1, b, c] → [a, b, c] reads (p, q, d) at (0, q, d).
-/
import Idealize.ShloMosaic.Lib.ValueLayout

namespace Cert.LibFlattenBroadcast

open Idealize.ShloMosaic Idealize.ShloMosaic.ValueIdx

variable {α : Type}

/-- An `[a, c]` array cast to `[a, 1, c]` reads, at `(p, u, d)`, the operand at `(p, d)`, whatever the unit
    coordinate `u`: both sit at row-major position p·c + d. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_two, Shape.rowMajor_val_three]
    show p.val * c + d.val = (p.val * 1 + u.val) * c + d.val
    rw [hu, Nat.mul_one, Nat.add_zero])

/-- An `[a, b, c]` array with its two leading axes merged, `[n, c]` with n = a·b, reads, at row `r = p·b + q` and
    column `d`, the operand at `(p, q, d)`: both sit at row-major position (p·b + q)·c + d. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (d : Fin c) (r : Fin n)
    (hr : r.val = p.val * b + q.val) :
    shapeCast ⟨2, ![n, c]⟩ x h (ix2 r d) = x (ix3 p q d) :=
  shapeCast_apply x h _ _ (by
    rw [Shape.rowMajor_val_three, Shape.rowMajor_val_two]
    show (p.val * b + q.val) * c + d.val = r.val * c + d.val
    rw [hr])

/-- An `[n, c]` array, n = a·b, with its leading axis split, `[a, b, c]`, reads, at `(p, q, d)`, the operand at row
    `r = p·b + q` and column `d`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (d : Fin c) (r : Fin n)
    (hr : r.val = p.val * b + q.val) :
    shapeCast ⟨3, ![a, b, c]⟩ x h (ix3 p q d) = x (ix2 r d) :=
  shapeCast_apply x h _ _ (by
    rw [Shape.rowMajor_val_two, Shape.rowMajor_val_three]
    show r.val * c + d.val = (p.val * b + q.val) * c + d.val
    rw [hr])

/-- An `[a, 1, c]` array broadcast to `[a, b, c]` reads, at `(p, q, d)`, the operand at `(p, 0, d)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (d : Fin c) :
    broadcastTo ⟨3, ![a, b, c]⟩ v h (ix3 p q d) = v (ix3 p (0 : Fin 1) d) := by
  refine broadcastTo_apply v h (ix3 p q d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A `[1, b, c]` array broadcast to `[a, b, c]` reads, at `(p, q, d)`, the operand at `(0, q, d)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (d : Fin c) :
    broadcastTo ⟨3, ![a, b, c]⟩ v h (ix3 p q d) = v (ix3 (0 : Fin 1) q d) := by
  refine broadcastTo_apply v h (ix3 p q d) (ix3 (0 : Fin 1) q d) fun ax => ?_
  match ax with
  | ⟨0, _⟩ => rfl
  | ⟨1, _⟩ =>
    show q.val = if b = 1 then 0 else q.val
    split
    · have := q.isLt; omega
    · rfl
  | ⟨2, _⟩ =>
    show d.val = if c = 1 then 0 else d.val
    split
    · have := d.isLt; omega
    · rfl

end Cert.LibFlattenBroadcast
-- ==== Proof.Merge.lean ====
/-
  Merging batch and head. The tiled computation works on arrays whose batch axis (extent 2) and head axis
  (extent 16) are merged into one axis of extent 32, merged row n = 16·b + h, with the mask carried as a
  [2, 1, 2048] array read at batch n / 16. A merge or split of leading axes keeps every element's row-major
  position, so the merged array at row 16·b + h reads the four-axis array at (b, h, ·, ·), and (16·b + h) / 16 = b.
  Hence the three-axis attention matrix and output, split back into four axes, are the four-axis ones.
-/
import proofs.«139712_j40973988004750_2_alg».proof.Proof.Spec
import proofs.«139712_j40973988004750_2_alg».proof.Proof.LibMergedAxes
import proofs.«139712_j40973988004750_2_alg».proof.Proof.LibFlattenBroadcast

noncomputable section

namespace Cert.Attn.Merge

open Idealize.ShloMosaic Idealize.ShloMosaic.ValueIdx Cert.LibMergedAxes Cert.LibFlattenBroadcast
open scoped BigOperators

/-- The merged row of batch `b` and head `h`: 16·b + h. -/
def row (b : Fin 2) (h : Fin 16) : Fin 32 := ⟨b.val * 16 + h.val, by omega⟩

/-- The batch of the merged row 16·b + h is b. -/
theorem batchOf_row (b : Fin 2) (h : Fin 16) : batchOf (row b h) = b :=
  Fin.ext (by show (b.val * 16 + h.val) / 16 = b.val; omega)

/-- A merged [32, 2048, 64] array at row 16·b + h reads the [2, 16, 2048, 64] array at (b, h, ·, ·). -/
theorem merged_apply (x : (⟨4, ![2, 16, 2048, 64]⟩ : Shape).Idx → EReal)
    (hq : (⟨4, ![2, 16, 2048, 64]⟩ : Shape).ShapeCasts ⟨3, ![32, 2048, 64]⟩) (b : Fin 2) (h : Fin 16) (r : Fin 2048)
    (d : Fin 64) : shapeCast ⟨3, ![32, 2048, 64]⟩ x hq (ix3 (row b h) r d) = x (ix4 b h r d) :=
  shapeCast_abcd_ncd_apply x hq b h r d (row b h) rfl

/-- The mask with a unit middle axis reads the mask. -/
theorem mask_apply (mask : (⟨2, ![2, 2048]⟩ : Shape).Idx → EReal)
    (hm : (⟨2, ![2, 2048]⟩ : Shape).ShapeCasts ⟨3, ![2, 1, 2048]⟩) (b : Fin 2) (u : Fin 1) (j : Fin 2048) :
    shapeCast ⟨3, ![2, 1, 2048]⟩ mask hm (ix3 b u j) = mask (ix2 b j) :=
  shapeCast_ac_a1c_apply mask hm b u j

/-- The three-axis attention matrix of the merged inputs, at row 16·b + h, is the four-axis one at (b, h). -/
theorem attn3_row (q k : (⟨4, ![2, 16, 2048, 64]⟩ : Shape).Idx → EReal) (mask : (⟨2, ![2, 2048]⟩ : Shape).Idx → EReal)
    (hq : (⟨4, ![2, 16, 2048, 64]⟩ : Shape).ShapeCasts ⟨3, ![32, 2048, 64]⟩)
    (hm : (⟨2, ![2, 2048]⟩ : Shape).ShapeCasts ⟨3, ![2, 1, 2048]⟩) (b : Fin 2) (h : Fin 16) (r j : Fin 2048) :
    attn3 (shapeCast ⟨3, ![32, 2048, 64]⟩ q hq) (shapeCast ⟨3, ![32, 2048, 64]⟩ k hq)
        (shapeCast ⟨3, ![2, 1, 2048]⟩ mask hm) (ix3 (row b h) r j)
      = attn4 q k mask (ix4 b h r j) := by
  show weight (fun j' => score (fun d => shapeCast ⟨3, ![32, 2048, 64]⟩ q hq (ix3 (row b h) r d))
        (fun d => shapeCast ⟨3, ![32, 2048, 64]⟩ k hq (ix3 (row b h) j' d))
        (shapeCast ⟨3, ![2, 1, 2048]⟩ mask hm (ix3 (batchOf (row b h)) (0 : Fin 1) j'))) j
      = weight (fun j' => score (fun d => q (ix4 b h r d)) (fun d => k (ix4 b h j' d)) (mask (ix2 b j'))) j
  simp only [merged_apply, batchOf_row, mask_apply]

theorem merge_attn (q k : (⟨4, ![2, 16, 2048, 64]⟩ : Shape).Idx → EReal) (mask : (⟨2, ![2, 2048]⟩ : Shape).Idx → EReal)
    (hq : (⟨4, ![2, 16, 2048, 64]⟩ : Shape).ShapeCasts ⟨3, ![32, 2048, 64]⟩)
    (hm : (⟨2, ![2, 2048]⟩ : Shape).ShapeCasts ⟨3, ![2, 1, 2048]⟩)
    (ha : (⟨3, ![32, 2048, 2048]⟩ : Shape).ShapeCasts ⟨4, ![2, 16, 2048, 2048]⟩) :
    shapeCast ⟨4, ![2, 16, 2048, 2048]⟩
        (Cert.Attn.attn3 (shapeCast ⟨3, ![32, 2048, 64]⟩ q hq) (shapeCast ⟨3, ![32, 2048, 64]⟩ k hq)
          (shapeCast ⟨3, ![2, 1, 2048]⟩ mask hm)) ha
      = Cert.Attn.attn4 q k mask := by
  funext i
  obtain ⟨b, h, r, j, rfl⟩ : ∃ (b : Fin 2) (h : Fin 16) (r : Fin 2048) (j : Fin 2048), i = ix4 b h r j :=
    ⟨_, _, _, _, eq_ix4 i⟩
  rw [shapeCast_ncd_abcd_apply _ ha b h r j (row b h) rfl]
  exact attn3_row q k mask hq hm b h r j

theorem merge_out (q k v : (⟨4, ![2, 16, 2048, 64]⟩ : Shape).Idx → EReal) (mask : (⟨2, ![2, 2048]⟩ : Shape).Idx → EReal)
    (hq : (⟨4, ![2, 16, 2048, 64]⟩ : Shape).ShapeCasts ⟨3, ![32, 2048, 64]⟩)
    (hm : (⟨2, ![2, 2048]⟩ : Shape).ShapeCasts ⟨3, ![2, 1, 2048]⟩)
    (ho : (⟨3, ![32, 2048, 64]⟩ : Shape).ShapeCasts ⟨4, ![2, 16, 2048, 64]⟩) :
    shapeCast ⟨4, ![2, 16, 2048, 64]⟩
        (Cert.Attn.out3 (shapeCast ⟨3, ![32, 2048, 64]⟩ q hq) (shapeCast ⟨3, ![32, 2048, 64]⟩ k hq)
          (shapeCast ⟨3, ![32, 2048, 64]⟩ v hq) (shapeCast ⟨3, ![2, 1, 2048]⟩ mask hm)) ho
      = Cert.Attn.out4 q k v mask := by
  funext i
  obtain ⟨b, h, r, e, rfl⟩ : ∃ (b : Fin 2) (h : Fin 16) (r : Fin 2048) (e : Fin 64), i = ix4 b h r e :=
    ⟨_, _, _, _, eq_ix4 i⟩
  rw [shapeCast_ncd_abcd_apply _ ho b h r e (row b h) rfl]
  show ∑ j : Fin 2048, attn3 (shapeCast ⟨3, ![32, 2048, 64]⟩ q hq) (shapeCast ⟨3, ![32, 2048, 64]⟩ k hq)
        (shapeCast ⟨3, ![2, 1, 2048]⟩ mask hm) (ix3 (row b h) r j) * shapeCast ⟨3, ![32, 2048, 64]⟩ v hq (ix3 (row b h) j e)
      = ∑ j : Fin 2048, attn4 q k mask (ix4 b h r j) * v (ix4 b h j e)
  simp only [attn3_row, merged_apply]

end Cert.Attn.Merge

end
-- ==== Proof.KernelRun.lean ====
/-
  The tiled program's run, read: its two results as functions of its four arguments.

  After the tiled computation the two merged result arrays are split back into (batch, head); the merged arrays
  the computation was launched on are the arguments with (batch, head) merged. Reading row 16·b + h of a merged
  array is reading (b, h) of the four-axis one, so the results are the four-axis attention output and attention
  matrix of the arguments.
-/
import proofs.«139712_j40973988004750_2_alg».proof.Proof.Blocks
import proofs.«139712_j40973988004750_2_alg».proof.Proof.Merge

set_option maxRecDepth 16384

noncomputable section

open Idealize.ShloMosaic Idealize.ShloMosaic.TcCoe Idealize.SL.Sem
open Idealize.ShloMosaic.Pipeline (Dat)

namespace Cert.Attn.KernelRun

open Idealize.ShloMosaic.ValueIdx Cert.KernelIdeal Cert.KernelIdeal.Gen Cert.Attn Cert.Attn.Blocks

variable (m : (ℓ : Loc nD τ sig) → Buf (Elt Ideal) ℓ) (ρ : Dev nD → PrngReg)

/-- The attention matrix the program returns. -/
theorem tail6 (c : Dev nD) :
    Pipeline.afterTail₀ cfgs (dats m) 0 (V0 m) [hostOps1] c main_v6
      = attn4 (m ((c : Thread nD τ).loc main_arg0)) (m ((c : Thread nD τ).loc main_arg1)) (m ((c : Thread nD τ).loc main_arg3)) := by
  unfold Pipeline.afterTail₀
  show StableHlo.after hostOps1 _ (Proc.devRef .tc main_v6) = _
  after_results
  have hw : Pipeline.withArrays (cfgs 0).spec c (V0 m c) (fun w => (dats m 0 c).arrAt w (cfgs 0).N)
      (Proc.devRef .tc main_v4_1) = attn3 (V m c main_v0) (V m c main_v1) (V m c main_v3) :=
    (Pipeline.withArrays_arr spec0 launch0.win.arr_inj c _ _ 5).trans (final5 m c)
  show shapeCast S2x16x2048x2048 (Pipeline.withArrays (cfgs 0).spec c (V0 m c) (fun w => (dats m 0 c).arrAt w (cfgs 0).N)
      (Proc.devRef .tc main_v4_1)) shapeCasts_S32x2048x2048_S2x16x2048x2048 = _
  rw [hw, V_v0, V_v1, V_v3]
  exact Merge.merge_attn _ _ _ _ _ _

/-- The attention output the program returns. -/
theorem tail5 (c : Dev nD) :
    Pipeline.afterTail₀ cfgs (dats m) 0 (V0 m) [hostOps1] c main_v5
      = out4 (m ((c : Thread nD τ).loc main_arg0)) (m ((c : Thread nD τ).loc main_arg1)) (m ((c : Thread nD τ).loc main_arg2))
          (m ((c : Thread nD τ).loc main_arg3)) := by
  unfold Pipeline.afterTail₀
  show StableHlo.after hostOps1 _ (Proc.devRef .tc main_v5) = _
  after_results
  have hw : Pipeline.withArrays (cfgs 0).spec c (V0 m c) (fun w => (dats m 0 c).arrAt w (cfgs 0).N)
      (Proc.devRef .tc main_v4_0) = out3 (V m c main_v0) (V m c main_v1) (V m c main_v2) (V m c main_v3) :=
    (Pipeline.withArrays_arr spec0 launch0.win.arr_inj c _ _ 4).trans (final4 m c)
  show shapeCast S2x16x2048x64 (Pipeline.withArrays (cfgs 0).spec c (V0 m c) (fun w => (dats m 0 c).arrAt w (cfgs 0).N)
      (Proc.devRef .tc main_v4_0)) shapeCasts_S32x2048x64_S2x16x2048x64 = _
  rw [hw, V_v0, V_v1, V_v2, V_v3]
  exact Merge.merge_out _ _ _ _ _ _ _

/-- THE RUN: every weakly fair execution of the tiled program terminates with its two results at the attention output
    and the attention matrix of its arguments, the arguments unchanged. -/
theorem run : θ_run defs (onTc (τ := τ) (main (F := Ideal))) ⟨m, fun _ => 0, ρ⟩ fun r => ∀ c : Dev nD,
      r.2.mem ((c.tc : Thread nD τ).loc main_v5)
        = out4 (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_v6)
        = attn4 (m ((c.tc : Thread nD τ).loc main_arg0)) (m ((c.tc : Thread nD τ).loc main_arg1))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (tail5 m c),
      ((h c).2 main_v6 (Pipeline.mem_restRefs_of main_v6 (by decide) (by decide))).trans (tail6 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Attn.KernelRun

end
-- ==== Proof.LibSoftmaxShift.lean ====
/-
  A softmax on the extended reals does not see a common real shift of its scores.

  For real scores s_j and a real M, exp (s_j − M) / Σ_j' exp (s_j' − M) = exp s_j / Σ_j' exp s_j': the common
  factor exp (−M) cancels, the sums being positive. It is an identity of real numbers, carried into the extended
  reals through the coercion of a finite sum (a sum of coerced reals is the coerced sum). The shift a stable
  softmax subtracts is the row's maximum, the fold of max from −∞ over the row; over at least one real it is
  a real: below +∞ because every entry is, and at least the first entry, hence above −∞.
-/
import Idealize.ShloMosaic.PureOps.Ideal

noncomputable section

namespace Cert.LibSoftmaxShift

open Idealize.ShloMosaic
open scoped BigOperators

/-- A finite sum of reals, each read as an extended real, is the real sum read as an extended real. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Softmax does not see a common real shift of its scores. -/
theorem softmax_shift {ι : Type} [Fintype ι] [Nonempty ι] (s : ι → ℝ) (M : ℝ) (j : ι) :
    Ideal.div (Ideal.exp ((s j : EReal) - (M : EReal))) (0 + ∑ j' : ι, Ideal.exp ((s j' : EReal) - (M : EReal)))
      = Ideal.div (Ideal.exp (s j : EReal)) (∑ j' : ι, Ideal.exp (s j' : EReal)) := by
  have hpos : ∀ t : ι → ℝ, (0 : ℝ) < ∑ j' : ι, Real.exp (t j') := fun t =>
    Finset.sum_pos (fun _ _ => Real.exp_pos _) Finset.univ_nonempty
  simp only [← EReal.coe_sub, Ideal.exp_coe, coe_sum, zero_add]
  rw [Ideal.div_coe (hpos fun j' => s j' - M).ne', Ideal.div_coe (hpos s).ne', ← EReal.coe_mul, ← EReal.coe_mul]
  congr 1
  have hM : Real.exp M ≠ 0 := (Real.exp_pos M).ne'
  have h1 : ∑ j' : ι, Real.exp (s j' - M) = (∑ j' : ι, Real.exp (s j')) / Real.exp M := by
    rw [Finset.sum_div]; exact Finset.sum_congr rfl fun j' _ => Real.exp_sub _ _
  rw [h1, Real.exp_sub]
  have := (hpos s).ne'
  field_simp

/-- The maximum of finitely many reals (at least one), started from ⊥, is a real. -/
theorem fold_max_real {n : Nat} (hn : 0 < n) (f : Fin n → EReal) (hf : ∀ k, ∃ r : ℝ, f k = (r : EReal)) :
    ∃ r : ℝ, (Finset.univ : Finset (Fin n)).fold max ⊥ f = (r : EReal) := by
  have hlt : (Finset.univ : Finset (Fin n)).fold max ⊥ f < ⊤ :=
    (Finset.fold_max_lt _).2 ⟨bot_lt_top, fun k _ => by obtain ⟨r, hr⟩ := hf k; rw [hr]; exact EReal.coe_lt_top r⟩
  have hge : f ⟨0, hn⟩ ≤ (Finset.univ : Finset (Fin n)).fold max ⊥ f :=
    (Finset.le_fold_max _).2 (Or.inr ⟨⟨0, hn⟩, Finset.mem_univ _, le_rfl⟩)
  have hne : (Finset.univ : Finset (Fin n)).fold max ⊥ f ≠ ⊥ := by
    obtain ⟨r, hr⟩ := hf ⟨0, hn⟩
    rw [hr] at hge
    exact ne_of_gt (lt_of_lt_of_le (EReal.bot_lt_coe r) hge)
  exact ⟨_, (EReal.coe_toReal hlt.ne hne).symm⟩

end Cert.LibSoftmaxShift

end
-- ==== Proof.RefValue.lean ====
/-
  The reference computes the specification.

  The reference forms the scores s(b,h,r,j) = (Σ_d q·k)·(1/√64) + mask·(−10⁹), subtracts from each row its
  maximum M(b,h,r) = max(−∞, max_j s(b,h,r,j)), exponentiates, and divides by 0 + Σ_j exp(s − M). The
  specification divides exp s by Σ_j exp s with no subtraction. On real inputs the two agree:
    · 1/√64 is the extended real 1/8, the word the specification multiplies by;
    · every score is a real, so the row maximum is a real (it is below ⊤ because every score is, and at
      least the row's first score, hence above ⊥);
    · for real scores and a real M, exp(s_j − M) / Σ exp(s_j' − M) = exp(s_j) / Σ exp(s_j'), an identity of
      real numbers (the common factor exp(−M) cancels and the sums are positive) carried into the
      extended reals through the coercion of a finite sum.
  The output is then the same contraction of the attention matrix with the value rows on both sides.
-/
import proofs.«139712_j40973988004750_2_alg».proof.Proof.Gen.ReferenceIdeal.Read
import proofs.«139712_j40973988004750_2_alg».proof.Proof.Spec
import proofs.«139712_j40973988004750_2_alg».proof.Proof.LibSoftmaxShift

noncomputable section

namespace Cert.Attn.RefValue

open Idealize.ShloMosaic Idealize.ShloMosaic.ValueIdx Cert.LibSoftmaxShift
open scoped BigOperators

/-! ## The constants -/

theorem ofBits_one : Ideal.ofBits .f32 0x3F800000#32 = ((1 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem cScale_eq : cScale = (((1 : ℝ) / 8 : ℝ) : EReal) := by
  simp [cScale, Ideal.ofBits, Ideal.ieee, -EReal.coe_mul]; norm_num

theorem cNeg_eq : cNeg = ((-1000000000 : ℝ) : EReal) := by
  simp [cNeg, Ideal.ofBits, Ideal.ieee, -EReal.coe_mul]; norm_num

theorem ofBits_negInf : Ideal.ofBits .f32 0xFF800000#32 = ⊥ := by simp [Ideal.ofBits, Ideal.ieee]

theorem sqrt_64 : Real.sqrt 64 = 8 := by
  rw [show (64 : ℝ) = 8 ^ 2 by norm_num, Real.sqrt_sq (by norm_num)]

/-- 1/√64 is the float word 1/8. -/
theorem scale_eq :
    Ideal.div (Ideal.ofBits .f32 0x3F800000#32) (Ideal.sqrt (Ideal.ofBits .f32 0x42800000#32)) = cScale := by
  rw [ofBits_one, ofBits_64, Ideal.sqrt_coe, if_neg (by norm_num), sqrt_64, Ideal.div_coe (by norm_num), cScale_eq,
    ← EReal.coe_mul, one_mul]

/-! ## The reference's stages at an index -/

open Cert.ReferenceIdeal Cert.ReferenceIdeal.Gen Cert.ReferenceIdeal.Read

theorem lidx_v2_eq (i : S2x16x2048x2048.Idx) (d : Fin 64) : lidx_main_v2 i d = ix4 (i 0) (i 1) (i 2) d :=
  funext fun a => Fin.ext (by match a with | ⟨0, _⟩ => rfl | ⟨1, _⟩ => rfl | ⟨2, _⟩ => rfl | ⟨3, _⟩ => rfl)

theorem ridx_v2_eq (i : S2x16x2048x2048.Idx) (d : Fin 64) : ridx_main_v2 i d = ix4 (i 0) (i 1) (i 3) d :=
  funext fun a => Fin.ext (by match a with | ⟨0, _⟩ => rfl | ⟨1, _⟩ => rfl | ⟨2, _⟩ => rfl | ⟨3, _⟩ => rfl)

theorem idx_mask_eq (i : S2x16x2048x2048.Idx) : idx_main_v5 (idx_main_v8 i) = ix2 (i 0) (i 3) :=
  funext fun a => Fin.ext (by match a with | ⟨0, _⟩ => rfl | ⟨1, _⟩ => rfl)

/-- The reference's score array, at an index, is the specification's score of that query row and key row. -/
theorem v9_eq (x0 x1 : (⟨S2x16x2048x64, .f32⟩ : BufTy).Contents (Elt Ideal)) (x3 : (⟨S2x2048, .f32⟩ : BufTy).Contents (Elt Ideal))
    (i : S2x16x2048x2048.Idx) :
    val_main_v9 (F := Ideal) x0 x1 x3 i
      = score (fun d => x0 (ix4 (i 0) (i 1) (i 2) d)) (fun d => x1 (ix4 (i 0) (i 1) (i 3) d)) (x3 (ix2 (i 0) (i 3))) := by
  rw [val_main_v9_apply, val_main_v4_apply, val_main_v2_apply, val_main_v3_apply, val_main_v1_apply, val_main_cst_0_apply,
    val_main_v0_apply, val_main_cst_apply, val_main_v8_apply, val_main_v7_apply, val_main_v5_apply, val_main_v6_apply,
    val_main_cst_1_apply]
  simp only [Ideal.addf_def, Ideal.mulf_def, Ideal.hostDivf_def, Ideal.hostUnary_sqrt_def, Ideal.ofBits_def, scale_eq,
    lidx_v2_eq, ridx_v2_eq, idx_mask_eq]
  rfl

/-- A score of real rows and a real mask entry is a real. -/
theorem score_real (q k : Fin 64 → EReal) (mk : EReal) (hq : ∀ d, ∃ r : ℝ, q d = (r : EReal))
    (hk : ∀ d, ∃ r : ℝ, k d = (r : EReal)) (hm : ∃ r : ℝ, mk = (r : EReal)) : ∃ r : ℝ, score q k mk = (r : EReal) := by
  choose fq hfq using hq
  choose fk hfk using hk
  obtain ⟨m, rfl⟩ := hm
  obtain rfl : q = fun d => (fq d : EReal) := funext hfq
  obtain rfl : k = fun d => (fk d : EReal) := funext hfk
  refine ⟨(∑ d : Fin 64, fq d * fk d) * (1 / 8) + m * (-1000000000), ?_⟩
  simp only [score, cScale_eq, cNeg_eq, ← EReal.coe_mul, coe_sum, ← EReal.coe_add]

theorem v9_real (x0 x1 : (⟨S2x16x2048x64, .f32⟩ : BufTy).Contents (Elt Ideal)) (x3 : (⟨S2x2048, .f32⟩ : BufTy).Contents (Elt Ideal))
    (h0 : ∀ i, ∃ r : ℝ, x0 i = (r : EReal)) (h1 : ∀ i, ∃ r : ℝ, x1 i = (r : EReal)) (h3 : ∀ i, ∃ r : ℝ, x3 i = (r : EReal))
    (i : S2x16x2048x2048.Idx) : ∃ r : ℝ, val_main_v9 (F := Ideal) x0 x1 x3 i = (r : EReal) := by
  rw [v9_eq]
  exact score_real _ _ _ (fun d => h0 _) (fun d => h1 _) (h3 _)

/-- The row maximum the reference subtracts is a real. -/
theorem v12_real (x0 x1 : (⟨S2x16x2048x64, .f32⟩ : BufTy).Contents (Elt Ideal)) (x3 : (⟨S2x2048, .f32⟩ : BufTy).Contents (Elt Ideal))
    (h0 : ∀ i, ∃ r : ℝ, x0 i = (r : EReal)) (h1 : ∀ i, ∃ r : ℝ, x1 i = (r : EReal)) (h3 : ∀ i, ∃ r : ℝ, x3 i = (r : EReal))
    (ρ : S2x16x2048.Idx) : ∃ M : ℝ, val_main_v12 (F := Ideal) x0 x1 x3 ρ = (M : EReal) := by
  rw [val_main_v12_apply, val_main_v11_apply, val_main_cst_3_apply]
  simp only [Ideal.maximumf_def, Ideal.ofBits_def, ofBits_negInf, bot_le, max_eq_right]
  unfold val_main_v10
  haveI : Std.Commutative (FloatOps.maximumf (F := Ideal) (φ := .f32)) := ⟨fun a b => max_comm a b⟩
  haveI : Std.Associative (FloatOps.maximumf (F := Ideal) (φ := .f32)) := ⟨fun a b c => max_assoc a b c⟩
  rw [Host.reduce_eq_fold_single (FloatOps.maximumf (F := Ideal) (φ := .f32)) _ _
    reducesTo_S2x16x2048x2048_S2x16x2048_d3 (by decide) h_S_ ρ]
  rw [val_main_cst_2_apply]
  simp only [Ideal.ofBits_def, ofBits_negInf]
  exact fold_max_real (by decide) _ (fun k => v9_real x0 x1 x3 h0 h1 h3 _)

/-! ## The stages in coordinates: batch b, head h, query row r, key row j -/

section Coordinates

variable (x0 x1 : (⟨S2x16x2048x64, .f32⟩ : BufTy).Contents (Elt Ideal)) (x3 : (⟨S2x2048, .f32⟩ : BufTy).Contents (Elt Ideal))
  (b : Fin 2) (h : Fin 16) (r : Fin 2048)

theorem v9_coord (j : Fin 2048) :
    val_main_v9 (F := Ideal) x0 x1 x3 (ix4 b h r j)
      = score (fun d => x0 (ix4 b h r d)) (fun d => x1 (ix4 b h j d)) (x3 (ix2 b j)) :=
  v9_eq x0 x1 x3 (ix4 b h r j)

/-- The subtracted maximum is constant along the row. -/
theorem v14_coord (j : Fin 2048) :
    val_main_v14 (F := Ideal) x0 x1 x3 (ix4 b h r j) = val_main_v12 (F := Ideal) x0 x1 x3 (ix3 b h r) := by
  rw [val_main_v14_apply, val_main_v13_apply]
  exact congrArg _ (funext fun a => Fin.ext (by match a with | ⟨0, _⟩ => rfl | ⟨1, _⟩ => rfl | ⟨2, _⟩ => rfl))

theorem v16_coord (j : Fin 2048) :
    val_main_v16 (F := Ideal) x0 x1 x3 (ix4 b h r j)
      = Ideal.exp (val_main_v9 (F := Ideal) x0 x1 x3 (ix4 b h r j) - val_main_v12 (F := Ideal) x0 x1 x3 (ix3 b h r)) := by
  rw [val_main_v16_apply, val_main_v15_apply, v14_coord]
  rfl

/-- The denominator is zero plus the sum of the row's exponentials. -/
theorem v19_coord (j : Fin 2048) :
    val_main_v19 (F := Ideal) x0 x1 x3 (ix4 b h r j)
      = 0 + ∑ k : Fin 2048, val_main_v16 (F := Ideal) x0 x1 x3 (ix4 b h r k) := by
  rw [val_main_v19_apply, val_main_v18_apply, val_main_v17_apply, val_main_cst_4_apply]
  simp only [Ideal.ofBits_def, Ideal.ofBits_zero_f32]
  refine congrArg (0 + ·) (Finset.sum_congr rfl fun k _ => congrArg _ (funext fun a => Fin.ext (by
    match a with | ⟨0, _⟩ => rfl | ⟨1, _⟩ => rfl | ⟨2, _⟩ => rfl | ⟨3, _⟩ => rfl)))

end Coordinates

/-! ## The two results -/

/-- On real inputs the reference's attention matrix is the specification's: the softmax with the row maximum
    subtracted equals the softmax without it, because the maximum is a real. -/
theorem ref_attn (x0 x1 : (⟨Cert.ReferenceIdeal.S2x16x2048x64, .f32⟩ : BufTy).Contents (Elt Ideal))
    (x3 : (⟨Cert.ReferenceIdeal.S2x2048, .f32⟩ : BufTy).Contents (Elt Ideal))
    (h0 : ∀ i, ∃ r : ℝ, x0 i = (r : EReal)) (h1 : ∀ i, ∃ r : ℝ, x1 i = (r : EReal)) (h3 : ∀ i, ∃ r : ℝ, x3 i = (r : EReal)) :
    Cert.ReferenceIdeal.Read.val_main_v20 (F := Ideal) x0 x1 x3 = Cert.Attn.attn4 x0 x1 x3 := by
  funext i
  obtain ⟨b, h, r, j, rfl⟩ : ∃ (b : Fin 2) (h : Fin 16) (r : Fin 2048) (j : Fin 2048), i = ix4 b h r j :=
    ⟨_, _, _, _, eq_ix4 i⟩
  obtain ⟨M, hM⟩ := v12_real x0 x1 x3 h0 h1 h3 (ix3 b h r)
  have hs : ∀ j' : Fin 2048, ∃ t : ℝ,
      score (fun d => x0 (ix4 b h r d)) (fun d => x1 (ix4 b h j' d)) (x3 (ix2 b j')) = (t : EReal) :=
    fun j' => score_real _ _ _ (fun d => h0 _) (fun d => h1 _) (h3 _)
  choose s hs using hs
  have key : ∀ j' : Fin 2048,
      val_main_v16 (F := Ideal) x0 x1 x3 (ix4 b h r j') = Ideal.exp ((s j' : EReal) - (M : EReal)) := fun j' => by
    rw [v16_coord, v9_coord, hs, hM]
  rw [val_main_v20_apply, Ideal.hostDivf_def, v19_coord]
  simp only [key]
  rw [softmax_shift s M j]
  show _ = weight (fun j' => score (fun d => x0 (ix4 b h r d)) (fun d => x1 (ix4 b h j' d)) (x3 (ix2 b j'))) j
  simp only [weight, hs]

/-- On real queries, keys and mask the reference's output is the specification's: the attention matrix
    contracted with the value rows, whatever the value entries are. -/
theorem ref_out (x0 x1 x2 : (⟨Cert.ReferenceIdeal.S2x16x2048x64, .f32⟩ : BufTy).Contents (Elt Ideal))
    (x3 : (⟨Cert.ReferenceIdeal.S2x2048, .f32⟩ : BufTy).Contents (Elt Ideal))
    (h0 : ∀ i, ∃ r : ℝ, x0 i = (r : EReal)) (h1 : ∀ i, ∃ r : ℝ, x1 i = (r : EReal)) (h3 : ∀ i, ∃ r : ℝ, x3 i = (r : EReal)) :
    Cert.ReferenceIdeal.Read.val_main_v21 (F := Ideal) x0 x1 x2 x3 = Cert.Attn.out4 x0 x1 x2 x3 := by
  funext i
  rw [val_main_v21_apply, ref_attn x0 x1 x3 h0 h1 h3]
  show _ = ∑ j : Fin 2048, attn4 x0 x1 x3 (ix4 (i 0) (i 1) (i 2) j) * x2 (ix4 (i 0) (i 1) j (i 3))
  refine Finset.sum_congr rfl fun k _ => ?_
  have el : lidx_main_v21 i k = ix4 (i 0) (i 1) (i 2) k := funext fun a => Fin.ext (by
    match a with | ⟨0, _⟩ => rfl | ⟨1, _⟩ => rfl | ⟨2, _⟩ => rfl | ⟨3, _⟩ => rfl)
  have er : ridx_main_v21 i k = ix4 (i 0) (i 1) k (i 3) := funext fun a => Fin.ext (by
    match a with | ⟨0, _⟩ => rfl | ⟨1, _⟩ => rfl | ⟨2, _⟩ => rfl | ⟨3, _⟩ => rfl)
  exact congrArg₂ (· * ·) (congrArg (attn4 x0 x1 x3) el) (congrArg x2 er)

end Cert.Attn.RefValue

end
-- ==== Proof.Finite.lean ====
/-
  From the precondition to finiteness. The precondition evaluates, on the four argument arrays, the
  conjunction of "every entry has absolute value strictly below +∞". When that conjunction is true on
  arrays of extended reals, every entry of every array is a real number: the only extended reals whose
  absolute value max x (−x) is not below ⊤ are ⊥ and ⊤ themselves.
-/
import proofs.«139712_j40973988004750_2_alg».proof.Defs
import Idealize.ShloMosaic.Lib.ReduceAll

noncomputable section

namespace Cert.Attn.Finite

open Idealize.ShloMosaic

/-- The shape with no axes has exactly one index. -/
instance : Subsingleton Cert.Pre_finite_inputs.S_.Idx := ⟨fun a b => funext fun d => d.elim0⟩

/-- An extended real whose absolute value compares strictly below the float word of +∞ is a real:
    at ⊥ and at ⊤ the absolute value max x (−x) is ⊤, which is not below ⊤. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  induction x using EReal.rec with
  | bot => simp [Ideal.cmp] at h
  | coe r => exact ⟨r, rfl⟩
  | top => simp [Ideal.cmp] at h

/-- If the finiteness predicate is true of four arrays of extended reals, every entry of each is a real.
    The predicate is a conjunction of four "all entries" reductions by `and`; each conjunct being 1 makes
    every compared entry 1, and an entry's comparison being 1 is the hypothesis of `real_of_abs_lt`. -/
theorem finite_of_pre [Cert.Pre_finite_inputs.Facts]
    (a0 a1 a2 : Cert.Pre_finite_inputs.S2x16x2048x64.Idx → EReal) (a3 : Cert.Pre_finite_inputs.S2x2048.Idx → EReal)
    (h : Cert.Pre_finite_inputs.fn (F := Ideal) a0 a1 a2 a3 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have h0 := congrFun h (fun d => d.elim0)
  dsimp only [Cert.Pre_finite_inputs.fn, Cert.Pre_finite_inputs.fn_part1, andi] at h0
  obtain ⟨h012, h3⟩ := IntOp.andi_eq_one.1 h0
  obtain ⟨h01, h2⟩ := IntOp.andi_eq_one.1 h012
  obtain ⟨h0', h1⟩ := IntOp.andi_eq_one.1 h01
  exact ⟨fun i => real_of_abs_lt (a0 i) (Host.reduce_andi_all _ _ _ _ _ h0' i),
    fun i => real_of_abs_lt (a1 i) (Host.reduce_andi_all _ _ _ _ _ h1 i),
    fun i => real_of_abs_lt (a2 i) (Host.reduce_andi_all _ _ _ _ _ h2 i),
    fun i => real_of_abs_lt (a3 i) (Host.reduce_andi_all _ _ _ _ _ h3 i)⟩

end Cert.Attn.Finite

end
-- ==== Proof.lean ====
/-
  Masked attention: a tiled computation against its plain definition, on the extended reals.

  Both programs take queries q, keys k, values v ([2,16,2048,64]) and a mask ([2,2048]) and return the attention
  output and the attention matrix. With the scores
      s(b,h,r,j) = (Σ_d q[b,h,r,d] · k[b,h,j,d]) · (1/8) + mask[b,j] · (−10⁹),
  the tiled program computes the weights exp s / Σ_j' exp s directly, 512 query rows of one (batch, head) at a
  time, while the plain definition first subtracts the row's maximum M: exp (s − M) / Σ_j' exp (s − M), with the
  scale spelt 1/√64. When every entry of q, k and the mask is a real number the scores are real, so is M, and
  exp (s − M) = exp s / exp M: the factor 1 / exp M cancels between numerator and denominator, and √64 = 8. That
  is the one place the precondition (all inputs finite) is used; the output, Σ_j a(b,h,r,j) · v[b,h,j,e], follows
  from the weights term by term with no assumption on v.

  The pieces: Spec (the functions), Payload and BlockFn (one block of the tiled computation), Blocks (the blocks
  tile the results), Merge (batch and head merged into one axis and split again), KernelRun (the tiled program's
  run), RefValue (the plain definition's run is the same functions, for real inputs), Finite (the precondition
  makes the inputs real).
-/
import proofs.«139712_j40973988004750_2_alg».proof.Defs
import proofs.«139712_j40973988004750_2_alg».proof.Proof.Gen.Kernel
import proofs.«139712_j40973988004750_2_alg».proof.Proof.Gen.Kernel.Skeleton
import proofs.«139712_j40973988004750_2_alg».proof.Proof.Gen.Kernel.Launch
import proofs.«139712_j40973988004750_2_alg».proof.Proof.Gen.Kernel.Points
import proofs.«139712_j40973988004750_2_alg».proof.Proof.Gen.Kernel.Frame
import proofs.«139712_j40973988004750_2_alg».proof.Proof.Gen.KernelIdeal
import proofs.«139712_j40973988004750_2_alg».proof.Proof.Gen.KernelIdeal.Skeleton
import proofs.«139712_j40973988004750_2_alg».proof.Proof.Gen.KernelIdeal.Launch
import proofs.«139712_j40973988004750_2_alg».proof.Proof.Gen.KernelIdeal.Points
import proofs.«139712_j40973988004750_2_alg».proof.Proof.Gen.KernelIdeal.Frame
import proofs.«139712_j40973988004750_2_alg».proof.Proof.Gen.ReferenceIdeal
import proofs.«139712_j40973988004750_2_alg».proof.Proof.Gen.ReferenceIdeal.Run
import proofs.«139712_j40973988004750_2_alg».proof.Proof.Gen.ReferenceIdeal.Read
import proofs.«139712_j40973988004750_2_alg».proof.Proof.Gen.Pre_finite_inputs
import proofs.«139712_j40973988004750_2_alg».proof.Proof.KernelRun
import proofs.«139712_j40973988004750_2_alg».proof.Proof.RefValue
import proofs.«139712_j40973988004750_2_alg».proof.Proof.Finite
import Idealize.ShloMosaic.Adequacy
import Idealize.ShloMosaic.Init

noncomputable section

namespace Cert.Proof

open Idealize.ShloMosaic Idealize.SL.Sem

/-- The word-level tiled program runs and keeps its arguments. -/
theorem frame_k : Cert.frame_Kernel := fun m ρ _ => Cert.Kernel.Gen.frame m ρ

/-- So does the tiled program read on the extended reals. -/
theorem frame_ki : Cert.frame_KernelIdeal := fun m ρ _ => Cert.KernelIdeal.Gen.frame m ρ

/-- The plain definition runs and keeps its arguments: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing was rewritten between the word-level program and its reading on the extended reals. -/
theorem preserves : Cert.preserves_Kernel_KernelIdeal := trivial

/-- From arguments that agree and are finite, the tiled program and the plain definition end with the same attention
    output and the same attention matrix: both are the functions of Spec of the arguments. -/
theorem algebraic : Cert.algebraic_KernelIdeal_ReferenceIdeal := by
  intro m ρ m' ρ' hpre hagree
  refine ⟨_, _, Cert.Attn.KernelRun.run m ρ, ?_⟩
  refine (θ_run Cert.ReferenceIdeal.defs _ _).mono (fun _ h c => ?_) (Cert.ReferenceIdeal.Value.run (F := Ideal) m' ρ')
  obtain ⟨f0, f1, -, f3⟩ := Cert.Attn.Finite.finite_of_pre _ _ _ _ (hpre c)
  obtain ⟨e0, e1, e2, e3⟩ := hagree c
  refine ⟨(h c).1.trans ((Cert.ReferenceIdeal.Read.val_main_v21_eq _ _ _ _).trans ?_),
    (h c).2.1.trans ((Cert.ReferenceIdeal.Read.val_main_v20_eq _ _ _).trans ?_), (h c).2.2⟩
  · rw [e0, e1, e2, e3]
    exact Cert.Attn.RefValue.ref_out _ _ _ _ f0 f1 f3
  · rw [e0, e1, e3]
    exact Cert.Attn.RefValue.ref_attn _ _ _ f0 f1 f3

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
